-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x300 : Shape := ⟨3, ![128, 1024, 300]⟩
abbrev S1000000 : Shape := ⟨1, ![1000000]⟩
abbrev S_ : Shape := ⟨0, ![]⟩

class Facts : Prop where
  bcast_S_S128x1024x300 : S_.BroadcastsInDim S128x1024x300 (![] : Fin 0 → Fin S128x1024x300.rank)
  reducesTo_S128x1024x300_S_d0_1_2 : S128x1024x300.ReducesTo [0, 1, 2] S_
  h_S_ : 0 < S_.numel
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S128x1024x300 .f32) (main_arg1 : FVec F S1000000 .f32) (main_arg2 : FVec F S1000000 .f32) : IVec S_ 1 :=
  let main_v0 : FVec F S128x1024x300 .f32 := Host.absf main_arg0
  let main_cst : FVec F S_ .f32 := constant S_ .f32 0x7F800000#32
  let main_v1 : FVec F S128x1024x300 .f32 := broadcastInDim S128x1024x300 ![] bcast_S_S128x1024x300 main_cst
  let main_v2 : IVec S128x1024x300 1 := cmpf .olt main_v0 main_v1
  let main_c : IVec S_ 1 := constantI S_ 1 1#1
  let main_v3 : IVec S_ 1 := (fun x v => Host.reduce IntOp.andi x v reducesTo_S128x1024x300_S_d0_1_2 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  main_v13
-- ==== Kernel.lean ====
abbrev S128x1024x300 : Shape := ⟨3, ![128, 1024, 300]⟩
abbrev S1000000 : Shape := ⟨1, ![1000000]⟩
abbrev S_ : Shape := ⟨0, ![]⟩
abbrev S301 : Shape := ⟨1, ![301]⟩
abbrev S1000000x1 : Shape := ⟨2, ![1000000, 1]⟩
abbrev S300 : Shape := ⟨1, ![300]⟩
abbrev S131072x300 : Shape := ⟨2, ![131072, 300]⟩
abbrev S1x300 : Shape := ⟨2, ![1, 300]⟩
abbrev S4096x300 : Shape := ⟨2, ![4096, 300]⟩

abbrev nBuf : Space → Nat
  | .hbm => 47
  | .vmem => 5
  | .smem => 0
  | _ => 0

abbrev bufTy : (tb : Table) → Fin (tcTables nBuf tb) → BufTy
  | .hbm, ⟨0, _⟩ => ⟨S128x1024x300, .f32⟩
  | .hbm, ⟨1, _⟩ => ⟨S1000000, .f32⟩
  | .hbm, ⟨2, _⟩ => ⟨S1000000, .f32⟩
  | .hbm, ⟨3, _⟩ => ⟨S1000000, .f32⟩
  | .hbm, ⟨4, _⟩ => ⟨S_, .f32⟩
  | .hbm, ⟨5, _⟩ => ⟨S1000000, .f32⟩
  | .hbm, ⟨6, _⟩ => ⟨S1000000, .f32⟩
  | .hbm, ⟨7, _⟩ => ⟨S1000000, .f32⟩
  | .hbm, ⟨8, _⟩ => ⟨S1000000, .f32⟩
  | .hbm, ⟨9, _⟩ => ⟨S_, .f32⟩
  | .hbm, ⟨10, _⟩ => ⟨S1000000, .f32⟩
  | .hbm, ⟨11, _⟩ => ⟨S1000000, .i1⟩
  | .hbm, ⟨12, _⟩ => ⟨S_, .f32⟩
  | .hbm, ⟨13, _⟩ => ⟨S1000000, .f32⟩
  | .hbm, ⟨14, _⟩ => ⟨S1000000, .i1⟩
  | .hbm, ⟨15, _⟩ => ⟨S1000000, .i1⟩
  | .hbm, ⟨16, _⟩ => ⟨S1000000, .i32⟩
  | .hbm, ⟨17, _⟩ => ⟨S_, .i32⟩
  | .hbm, ⟨18, _⟩ => ⟨S_, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S1000000, .i1⟩
  | .hbm, ⟨27, _⟩ => ⟨S_, .i32⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S_, .f32⟩
  | .hbm, ⟨32, _⟩ => ⟨S301, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S301, .f32⟩
  | .hbm, ⟨42, _⟩ => ⟨S300, .f32⟩
  | .hbm, ⟨43, _⟩ => ⟨S131072x300, .f32⟩
  | .hbm, ⟨44, _⟩ => ⟨S1x300, .f32⟩
  | .hbm, ⟨45, _⟩ => ⟨S131072x300, .f32⟩
  | .hbm, ⟨46, _⟩ => ⟨S128x1024x300, .f32⟩
  | .local _ .vmem, ⟨0, _⟩ => ⟨S4096x300, .f32⟩
  | .local _ .vmem, ⟨1, _⟩ => ⟨S4096x300, .f32⟩
  | .local _ .vmem, ⟨2, _⟩ => ⟨S1x300, .f32⟩
  | .local _ .vmem, ⟨3, _⟩ => ⟨S4096x300, .f32⟩
  | .local _ .vmem, ⟨4, _⟩ => ⟨S4096x300, .f32⟩
  | _, _ => ⟨S128x1024x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_c : Ref sig .tc := ⟨.hbm, 17, rfl⟩
abbrev main_call0_call0_v0 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1000000 : S_.BroadcastsInDim S1000000 (![] : Fin 0 → Fin S1000000.rank)
  natLt_1_32 : 1 < 32
  bcast_S_S_ : S_.BroadcastsInDim S_ (![] : Fin 0 → Fin S_.rank)
  reduceWindows_S1000000_S1000000_w1000000s1p999999_0 : S1000000.ReduceWindows (![1000000] : Fin 1 → Nat) ![1] ![999999] ![0] S1000000
  h_S_ : 0 < S_.numel
  bcast_S_S301 : S_.BroadcastsInDim S301 (![] : Fin 0 → Fin S301.rank)
  bcast_S1000000_S1000000x1_0 : S1000000.BroadcastsInDim S1000000x1 (![0] : Fin 1 → Fin S1000000x1.rank)
  slices_S301_S300_0 : S301.Slices ![0] S300
  shapeCasts_S128x1024x300_S131072x300 : S128x1024x300.ShapeCasts S131072x300
  shapeCasts_S300_S1x300 : S300.ShapeCasts S1x300
  inb_S4096x300_S4096x300_0_0 : ∀ a, (![0, 0] : Fin 2 → Nat) a + S4096x300.size a ≤ S4096x300.size a
  h_S4096x300 : 0 < S4096x300.numel
  shapeCasts_S4096x300_S4096x300 : S4096x300.ShapeCasts S4096x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S4096x300 : S1x300.Broadcasts S4096x300
  shapeCasts_S131072x300_S128x1024x300 : S131072x300.ShapeCasts S128x1024x300
  scatter_S301_S1000000x1_S1000000_n_0_0_1_wf : ScatterDims.WF S301 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x300.size a ≤ S131072x300.size a
  hwx0_0 : ∀ i : grid0.Coords, EltTy.bits .f32 = 32 ∨ (Rect.block (s := S131072x300) S4096x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x300.size a ≤ S1x300.size a
  hwx0_1 : ∀ i : grid0.Coords, EltTy.bits .f32 = 32 ∨ (Rect.block (s := S1x300) S1x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x300.size a ≤ S131072x300.size a
  hwx0_2 : ∀ i : grid0.Coords, EltTy.bits .f32 = 32 ∨ (Rect.block (s := S131072x300) S4096x300.size (cc0_transform_2 i) (hinb0_2 i)).WholeWords (EltTy.packing .f32)

variable [Facts₀]

def scatter_S301_S1000000x1_S1000000_n_0_0_1 : ScatterDims S301 S1000000x1 S1000000 where
  updateWindowDims := []
  insertedWindowDims := [0]
  scatterDimsToOperandDims := [0]
  indexVectorDim := 1
  wf := scatter_S301_S1000000x1_S1000000_n_0_0_1_wf

abbrev win0_0 : Pipeline.Window sig grid0 :=
  Pipeline.Window.ofSpec (Memref.whole main_v27) S4096x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4096x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1024x300 : Shape := ⟨3, ![128, 1024, 300]⟩
abbrev S1000000 : Shape := ⟨1, ![1000000]⟩
abbrev S_ : Shape := ⟨0, ![]⟩
abbrev S301 : Shape := ⟨1, ![301]⟩
abbrev S1000000x1 : Shape := ⟨2, ![1000000, 1]⟩
abbrev S300 : Shape := ⟨1, ![300]⟩
abbrev S1x1x300 : Shape := ⟨3, ![1, 1, 300]⟩

abbrev nBuf : Space → Nat
  | .hbm => 46
  | .vmem => 0
  | .smem => 0
  | _ => 0

abbrev bufTy : (tb : Table) → Fin (tcTables nBuf tb) → BufTy
  | .hbm, ⟨0, _⟩ => ⟨S128x1024x300, .f32⟩
  | .hbm, ⟨1, _⟩ => ⟨S1000000, .f32⟩
  | .hbm, ⟨2, _⟩ => ⟨S1000000, .f32⟩
  | .hbm, ⟨3, _⟩ => ⟨S1000000, .f32⟩
  | .hbm, ⟨4, _⟩ => ⟨S_, .f32⟩
  | .hbm, ⟨5, _⟩ => ⟨S1000000, .f32⟩
  | .hbm, ⟨6, _⟩ => ⟨S1000000, .f32⟩
  | .hbm, ⟨7, _⟩ => ⟨S1000000, .f32⟩
  | .hbm, ⟨8, _⟩ => ⟨S1000000, .f32⟩
  | .hbm, ⟨9, _⟩ => ⟨S_, .f32⟩
  | .hbm, ⟨10, _⟩ => ⟨S1000000, .f32⟩
  | .hbm, ⟨11, _⟩ => ⟨S1000000, .i1⟩
  | .hbm, ⟨12, _⟩ => ⟨S_, .f32⟩
  | .hbm, ⟨13, _⟩ => ⟨S1000000, .f32⟩
  | .hbm, ⟨14, _⟩ => ⟨S1000000, .i1⟩
  | .hbm, ⟨15, _⟩ => ⟨S1000000, .i1⟩
  | .hbm, ⟨16, _⟩ => ⟨S1000000, .i32⟩
  | .hbm, ⟨17, _⟩ => ⟨S_, .i32⟩
  | .hbm, ⟨18, _⟩ => ⟨S_, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S1000000, .i1⟩
  | .hbm, ⟨27, _⟩ => ⟨S_, .i32⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S_, .f32⟩
  | .hbm, ⟨32, _⟩ => ⟨S301, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S301, .f32⟩
  | .hbm, ⟨42, _⟩ => ⟨S300, .f32⟩
  | .hbm, ⟨43, _⟩ => ⟨S1x1x300, .f32⟩
  | .hbm, ⟨44, _⟩ => ⟨S128x1024x300, .f32⟩
  | .hbm, ⟨45, _⟩ => ⟨S128x1024x300, .f32⟩
  | _, _ => ⟨S128x1024x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_c : Ref sig .tc := ⟨.hbm, 17, rfl⟩
abbrev main_call0_call0_v0 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  natLt_1_32 : 1 < 32
  bcast_S_S_ : S_.BroadcastsInDim S_ (![] : Fin 0 → Fin S_.rank)
  reduceWindows_S1000000_S1000000_w1000000s1p999999_0 : S1000000.ReduceWindows (![1000000] : Fin 1 → Nat) ![1] ![999999] ![0] S1000000
  h_S_ : 0 < S_.numel
  bcast_S_S301 : S_.BroadcastsInDim S301 (![] : Fin 0 → Fin S301.rank)
  bcast_S1000000_S1000000x1_0 : S1000000.BroadcastsInDim S1000000x1 (![0] : Fin 1 → Fin S1000000x1.rank)
  slices_S301_S300_0 : S301.Slices ![0] S300
  bcast_S300_S1x1x300_2 : S300.BroadcastsInDim S1x1x300 (![2] : Fin 1 → Fin S1x1x300.rank)
  bcast_S1x1x300_S128x1024x300_0_1_2 : S1x1x300.BroadcastsInDim S128x1024x300 (![0, 1, 2] : Fin 3 → Fin S128x1024x300.rank)
  scatter_S301_S1000000x1_S1000000_n_0_0_1_wf : ScatterDims.WF S301 S1000000x1 S1000000 [] [0] [0] 1

variable [Facts₀]

def scatter_S301_S1000000x1_S1000000_n_0_0_1 : ScatterDims S301 S1000000x1 S1000000 where
  updateWindowDims := []
  insertedWindowDims := [0]
  scatterDimsToOperandDims := [0]
  indexVectorDim := 1
  wf := scatter_S301_S1000000x1_S1000000_n_0_0_1_wf

class Facts : Prop extends Facts₀ where

variable [Facts]
-- ==== Proof.AddRow.lean ====
/-
  The function both programs compute from the table `x` of shape [128, 1024, 300] and a 300-vector `n`:
  every row of the table gets the vector added,

      addRow x n (b, s, d) = x (b, s, d) + n d        on the extended reals.

  Two arrangements of it meet here.
  * The host's: `n` is laid along the last axis of a [1, 1, 300] array, that array is repeated over
    [128, 1024, 300], and the table is added to it elementwise.
  * The kernel's: the table is flattened to 131072 rows of 300, `n` becomes the one row of a [1, 300] array,
    the row is added to every row (`rowAdd X N (r, d) = X (r, d) + N (0, d)`), and the rows are folded back.
    The flattening keeps the row-major position, (b, s, d) ↦ (1024 b + s, d), so it touches no value.
  Only the index arithmetic of the reshapes and broadcasts is used; no law of the extended reals is needed,
  since both sides add the same two numbers at every index.
-/
import Idealize.ShloMosaic.Lib.ValueIdx
import Idealize.ShloMosaic.Lib.ValueLayout
import Idealize.ShloMosaic.Lib.Pipeline.Value
import Idealize.ShloMosaic.PureOps.Ideal

noncomputable section

namespace Cert.AddRow

open Idealize.ShloMosaic Idealize.ShloMosaic.ValueIdx

/-- The table's shape, its flattening to rows, and the vector as a vector, a one-row matrix and a [1, 1, 300] array. -/
abbrev T3 : Shape := ⟨3, ![128, 1024, 300]⟩
abbrev T2 : Shape := ⟨2, ![131072, 300]⟩
abbrev R1 : Shape := ⟨1, ![300]⟩
abbrev R2 : Shape := ⟨2, ![1, 300]⟩
abbrev R3 : Shape := ⟨3, ![1, 1, 300]⟩

/-- Every row of the table with the vector added. -/
def addRow (x : FVec Ideal T3 .f32) (n : FVec Ideal R1 .f32) : FVec Ideal T3 .f32 :=
  fun i => x i + n (ix1 (⟨(i 2).val, (i 2).isLt⟩ : Fin 300))

theorem addRow_apply (x : FVec Ideal T3 .f32) (n : FVec Ideal R1 .f32) (b : Fin 128) (s : Fin 1024) (d : Fin 300) :
    addRow x n (ix3 b s d) = x (ix3 b s d) + n (ix1 d) := rfl

/-- The one row of a [1, 300] array added to every row of a [131072, 300] array. -/
def rowAdd (X : FVec Ideal T2 .f32) (N : FVec Ideal R2 .f32) : FVec Ideal T2 .f32 :=
  fun i => X i + N (ix2 (0 : Fin 1) (⟨(i 1).val, (i 1).isLt⟩ : Fin 300))

theorem rowAdd_apply (X : FVec Ideal T2 .f32) (N : FVec Ideal R2 .f32) (r : Fin 131072) (d : Fin 300) :
    rowAdd X N (ix2 r d) = X (ix2 r d) + N (ix2 (0 : Fin 1) d) := rfl

/-- The host's arrangement: the table plus the vector repeated over it. -/
theorem host_eq (x : FVec Ideal T3 .f32) (n : FVec Ideal R1 .f32)
    (h1 : R1.BroadcastsInDim R3 (![2] : Fin 1 → Fin R3.rank))
    (h2 : R3.BroadcastsInDim T3 (![0, 1, 2] : Fin 3 → Fin T3.rank)) :
    addf x (broadcastInDim T3 ![0, 1, 2] h2 (broadcastInDim R3 ![2] h1 n)) = addRow x n := by
  funext i
  obtain ⟨b, s, d, rfl⟩ : ∃ (b : Fin 128) (s : Fin 1024) (d : Fin 300), i = ix3 b s d := ⟨i 0, i 1, i 2, eq_ix3 i⟩
  rw [addf_apply, addRow_apply]
  refine congrArg (x (ix3 b s d) + ·) ?_
  refine (broadcastInDim_apply _ h2 _ (ix3 b s d) (ix3 (0 : Fin 1) (0 : Fin 1) d) fun a => ?_).trans ?_
  · match a with
    | ⟨0, _⟩ => rfl
    | ⟨1, _⟩ => rfl
    | ⟨2, _⟩ => rfl
  · refine broadcastInDim_apply _ h1 _ (ix3 (0 : Fin 1) (0 : Fin 1) d) (ix1 d) fun a => ?_
    match a with
    | ⟨0, _⟩ => rfl

/-- The kernel's arrangement: flatten, add the row, fold back. -/
theorem rows_eq (x : FVec Ideal T3 .f32) (n : FVec Ideal R1 .f32)
    (h1 : T3.ShapeCasts T2) (h2 : R1.ShapeCasts R2) (h3 : T2.ShapeCasts T3) :
    shapeCast T3 (rowAdd (shapeCast T2 x h1) (shapeCast R2 n h2)) h3 = addRow x n := by
  funext i
  obtain ⟨b, s, d, rfl⟩ : ∃ (b : Fin 128) (s : Fin 1024) (d : Fin 300), i = ix3 b s d := ⟨i 0, i 1, i 2, eq_ix3 i⟩
  have hr : b.val * 1024 + s.val < 131072 := by have := b.isLt; have := s.isLt; omega
  refine (shapeCast_apply _ h3 (ix3 b s d) (ix2 (⟨b.val * 1024 + s.val, hr⟩ : Fin 131072) d) ?_).trans ?_
  · rw [Shape.rowMajor_val_two, Shape.rowMajor_val_three]
    rfl
  rw [rowAdd_apply, addRow_apply]
  refine congrArg₂ (· + ·) ?_ ?_
  · refine shapeCast_apply _ h1 _ (ix3 b s d) ?_
    rw [Shape.rowMajor_val_two, Shape.rowMajor_val_three]
    rfl
  · exact shapeCast_a_1a_apply n h2 (0 : Fin 1) d

end Cert.AddRow

end
-- ==== Proof.Noise.lean ====
/-
  The 300-vector both programs add to the table, as ONE function `noise sgn u` of the two sample arrays
  (a million entries each). Both programs compute it by the same host operations with the same literals, so
  the certificate never looks inside it; the stages are named here only to say what they are:

    draws   r k      = c · sign(sgn k) · log(u k)                    (c the scale, a float literal)
    accepted a k     = (r k ≥ −A) ∧ (r k ≤ A)                        (A the truncation bound, a float literal)
    rank     ρ k     = (Σ_{k' ≤ k} a k') − 1                         (a running count: a padded window sum)
    slot     t k     = ρ k if accepted and ρ k < 300, else 300        (then a negative slot is wrapped by 301)
    noise            = the first 300 entries of zeros(301) with entry `slot k` set to `draws k`, k in order.

  The side conditions of the shape operations are decided on the literal shapes.
-/
import Idealize.ShloMosaic.PureOps

noncomputable section

namespace Cert.Noise

open Idealize.ShloMosaic

abbrev S_ : Shape := ⟨0, ![]⟩
abbrev SN : Shape := ⟨1, ![1000000]⟩
abbrev SNx1 : Shape := ⟨2, ![1000000, 1]⟩
abbrev S301 : Shape := ⟨1, ![301]⟩
abbrev S300 : Shape := ⟨1, ![300]⟩

theorem bcast_N : S_.BroadcastsInDim SN (![] : Fin 0 → Fin SN.rank) := by decide
theorem bcast_0 : S_.BroadcastsInDim S_ (![] : Fin 0 → Fin S_.rank) := by decide
theorem bcast_301 : S_.BroadcastsInDim S301 (![] : Fin 0 → Fin S301.rank) := by decide
theorem bcast_Nx1 : SN.BroadcastsInDim SNx1 (![0] : Fin 1 → Fin SNx1.rank) := by decide
theorem lt_1_32 : 1 < 32 := by decide
theorem windows : SN.ReduceWindows (![1000000] : Fin 1 → Nat) ![1] ![999999] ![0] SN := by decide
theorem pos_0 : 0 < S_.numel := by decide
theorem slices : S301.Slices ![0] S300 := by decide
theorem scatter_wf : ScatterDims.WF S301 SNx1 SN [] [0] [0] 1 := by decide

/-- One scalar index per sample, into the one axis of the 301-slot buffer. -/
def slots : ScatterDims S301 SNx1 SN where
  updateWindowDims := []
  insertedWindowDims := [0]
  scatterDimsToOperandDims := [0]
  indexVectorDim := 1
  wf := scatter_wf

variable {F : FTy → Type} [FloatOps F]

/-- The Laplace draws: scale · sign · log. -/
def draws (sgn u : FVec F SN .f32) : FVec F SN .f32 :=
  mulf (mulf (broadcastInDim SN ![] bcast_N (constant S_ .f32 0xBE315CAC#32)) (Host.sign sgn)) (Host.log u)

/-- Which draws lie inside the truncation bounds. -/
def accepted (r : FVec F SN .f32) : IVec SN 1 :=
  andi (cmpf .oge r (broadcastInDim SN ![] bcast_N (constant S_ .f32 0xBCAE18D5#32)))
    (cmpf .ole r (broadcastInDim SN ![] bcast_N (constant S_ .f32 0x3CAE18D5#32)))

/-- The rank of each sample among the accepted ones: the running count, less one. -/
def rank (a : IVec SN 1) : IVec SN 32 :=
  subi (Host.reduceWindow IntOp.addi ![1000000] ![1] ![999999] ![0] (extui 32 a lt_1_32)
      (broadcastInDim S_ ![] bcast_0 (constantI S_ 32 0#32)) windows pos_0)
    (broadcastInDim SN ![] bcast_N (constantI S_ 32 1#32))

/-- The slot each sample is written to: its rank if it is accepted and among the first 300, the spare slot 300
    otherwise (and a negative slot wrapped around by 301, as indexing does). -/
def slot (a : IVec SN 1) (ρ : IVec SN 32) : IVec SN 32 :=
  have w : IVec SN 32 := select (andi a (cmpi .slt ρ (broadcastInDim SN ![] bcast_N (constantI S_ 32 300#32)))) ρ
    (broadcastInDim SN ![] bcast_N (id (constantI S_ 32 300#32)))
  select (cmpi .slt w (broadcastInDim SN ![] bcast_N (constantI S_ 32 0#32)))
    (addi w (broadcastInDim SN ![] bcast_N (constantI S_ 32 301#32))) w

/-- The noise vector: the draws written into their slots, the spare slot dropped. -/
def noise (sgn u : FVec F SN .f32) : FVec F S300 .f32 :=
  extractStridedSlice S300 ![0]
    (Host.scatter slots (fun _ b => b) (broadcastInDim S301 ![] bcast_301 (constant S_ .f32 0x00000000#32))
      (broadcastInDim SNx1 ![0] bcast_Nx1 (slot (accepted (draws sgn u)) (rank (accepted (draws sgn u)))))
      (draws sgn u))
    slices

end Cert.Noise

end
-- ==== Proof.KernelRows.lean ====
/-
  What the kernel's one region leaves in its result array, read off the blocks.

  The region walks 32 grid points. At point `t` it stages rows 4096 t … 4096 t + 4095 of the flattened table
  (a [4096, 300] block) and the whole one-row array (block (0, 0) of [1, 300]), adds the row to every row of the
  block, and writes the [4096, 300] result back to rows 4096 t … 4096 t + 4095 of the result array. So each block
  written back is the restriction of ONE function of the two arrays the region finds,
  `rowAdd X N (r, d) = X (r, d) + N (0, d)`, and the 32 blocks tile the 131072 rows (row `r` lies in the block of
  point `r / 4096`): the result array ends holding `rowAdd X N`.
-/
import proofs.«101872_j59253368815715_1_alg».proof.Proof.Gen.KernelIdeal.Frame
import proofs.«101872_j59253368815715_1_alg».proof.Proof.AddRow
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.AddRow

variable (m : (ℓ : Loc nD τ sig) → Buf (Elt Ideal) ℓ) (ρ : Dev nD → PrngReg)

theorem hz : (![0, 0] : Fin 2 → Nat) = fun _ => 0 := funext fun a => by fin_cases a <;> rfl

/-- The body's stored value at an entry of the block: the block's entry plus the row's entry in the same column
    (the two shape casts are of a shape to itself; the broadcast repeats the one row). -/
theorem pay_apply (x0 : Vec Ideal S4096x300 .f32) (x1 : Vec Ideal S1x300 .f32) (p : Fin 4096) (d : Fin 300) :
    k0_pay1 x0 x1 (ix2 p d) = x0 (ix2 p d) + x1 (ix2 (0 : Fin 1) d) := by
  unfold k0_pay1
  rw [shapeCast_self, shapeCast_self, addf_apply]
  exact congrArg (x0 (ix2 p d) + ·) (broadcastTo_1b_ab_apply x1 _ p d)

/-- The printed index maps over the grid: the table's window and the result's move together down the rows, one
    block per point, in column block 0; the row's window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The per-point equation over ANY two arrays: cutting the body's result at point `t` — the block of the first
    array at `t` with the second array's one row added — is block `t` of `rowAdd` of the two arrays. Entry
    (p, d) of the block sits at row 4096 t + p, column d; the row's entry sits at (0, d). -/
theorem flushed_core (t : Fin cfg0.N) (A0 : FVec Ideal T2 .f32) (A1 : FVec Ideal R2 .f32) :
    (cfg0.win 2).cut (grid0.coords t)
        (out0_2 (((cfg0.win 0).blk t).view.read (Elt Ideal) A0) (((cfg0.win 1).blk t).view.read (Elt Ideal) A1))
      = ((cfg0.win 2).blk t).view.read (Elt Ideal) (rowAdd A0 A1) := by
  unfold out0_2
  rw [View.canon_unit_zero hz]
  simp only [View.ld_unit_zero (S := S4096x300) hz, View.ld_unit_zero (S := S1x300) hz]
  obtain ⟨e0, e1, e2, e3, e4, e5⟩ := idx_facts t
  funext j
  obtain ⟨p, d, rfl⟩ : ∃ (p : Fin 4096) (d : Fin 300), j = ix2 p d := ⟨j 0, j 1, eq_ix2 j⟩
  refine (pay_apply _ _ p d).trans ?_
  have ht : t.val < 32 := Nat.lt_of_lt_of_eq t.isLt N_0
  have hr : t.val * 4096 + p.val < 131072 := by have := p.isLt; omega
  have h2 : ((cfg0.win 2).blk t).view.emb (ix2 p d) = ix2 (⟨t.val * 4096 + p.val, hr⟩ : Fin 131072) d := by
    funext a; apply Fin.ext
    match a with
    | ⟨0, _⟩ => show win0_2.index t (0 : Fin 2) * 4096 + 1 * p.val = t.val * 4096 + p.val; omega
    | ⟨1, _⟩ => show win0_2.index t (1 : Fin 2) * 300 + 1 * d.val = d.val; omega
  have h0 : ((cfg0.win 0).blk t).view.emb (ix2 p d) = ix2 (⟨t.val * 4096 + p.val, hr⟩ : Fin 131072) d := by
    funext a; apply Fin.ext
    match a with
    | ⟨0, _⟩ => show win0_0.index t (0 : Fin 2) * 4096 + 1 * p.val = t.val * 4096 + p.val; omega
    | ⟨1, _⟩ => show win0_0.index t (1 : Fin 2) * 300 + 1 * d.val = d.val; omega
  have h1 : ((cfg0.win 1).blk t).view.emb (ix2 (0 : Fin 1) d) = ix2 (0 : Fin 1) d := by
    funext a; apply Fin.ext
    match a with
    | ⟨0, _⟩ => show win0_1.index t (0 : Fin 2) * 1 + 1 * 0 = 0; omega
    | ⟨1, _⟩ => show win0_1.index t (1 : Fin 2) * 300 + 1 * d.val = d.val; omega
  rw [View.read_apply, View.read_apply, View.read_apply, h0, h1, h2, rowAdd_apply]
  rfl

/-- What point `t` writes back is block `t` of `rowAdd` of the two arrays as the region finds them (the arrays of
    windows 0 and 1: the flattened table and the one-row array). The arrays enter only as names. -/
theorem flushed_eq (c : Dev nD) (t : Fin cfg0.N) :
    (dats m 0 c).flushed 2 t
      = ((cfg0.win 2).blk t).view.read (Elt Ideal)
          (rowAdd (V m c (Pipeline.arrRef spec0 0)) (V m c (Pipeline.arrRef spec0 1))) := by
  show (cfg0.win 2).cut (grid0.coords t) ((dats m 0 c).after 2 t) = _
  rw [after0_2]
  unfold iblk
  generalize V m c (Pipeline.arrRef spec0 0) = A0
  generalize V m c (Pipeline.arrRef spec0 1) = A1
  exact flushed_core t A0 A1

/-- An index of the result array is in point `t`'s block iff each coordinate is in the block's range on its axis. -/
theorem mem_blk (t : Fin cfg0.N) (i : S131072x300.Idx) :
    i ∈ ((cfg0.win 2).blk t).view.set ↔ ∀ a : Fin 2, win0_2.index t a * S4096x300.size a ≤ (i a).val
      ∧ (i a).val < win0_2.index t a * S4096x300.size a + S4096x300.size a := by
  show i ∈ ((View.whole main_v29).slice (win0_2.rect t)).set ↔ _
  rw [View.set_slice_whole, Rect.mem_set_unit]
  exact Iff.rfl

/-- The blocks tile the rows: row `r` is in the block of point `r / 4096`, and every point writes back. -/
theorem cover (i : S131072x300.Idx) :
    ∃ t : Fin cfg0.N, (cfg0.win 2).flush t = true ∧ i ∈ ((cfg0.win 2).blk t).view.set := by
  have hi0 : (i 0).val < 131072 := (i 0).isLt
  have hi1 : (i 1).val < 300 := (i 1).isLt
  have hN : cfg0.N = 32 := N_0
  refine ⟨⟨(i 0).val / 4096, by rw [hN]; omega⟩, flush0_2 _, ?_⟩
  rw [mem_blk]
  obtain ⟨-, -, -, -, e4, e5⟩ := idx_facts ⟨(i 0).val / 4096, by rw [hN]; omega⟩
  intro a
  match a with
  | ⟨0, _⟩ =>
    show win0_2.index _ (0 : Fin 2) * 4096 ≤ (i 0).val ∧ (i 0).val < win0_2.index _ (0 : Fin 2) * 4096 + 4096
    rw [e4]; show (i 0).val / 4096 * 4096 ≤ (i 0).val ∧ (i 0).val < (i 0).val / 4096 * 4096 + 4096; omega
  | ⟨1, _⟩ =>
    show win0_2.index _ (1 : Fin 2) * 300 ≤ (i 1).val ∧ (i 1).val < win0_2.index _ (1 : Fin 2) * 300 + 300
    rw [e5]; omega

/-- The result array after the region: every row of the flattened table with the one row added. -/
theorem final (c : Dev nD) :
    (dats m 0 c).arrAt 2 cfg0.N = rowAdd (V m c (Pipeline.arrRef spec0 0)) (V m c (Pipeline.arrRef spec0 1)) :=
  (dats m 0 c).arrAt_eq_of_cover 2 (rowAdd (V m c (Pipeline.arrRef spec0 0)) (V m c (Pipeline.arrRef spec0 1)))
    (fun t _ => flushed_eq m c t) cover

end Cert.KernelIdeal.Rows

end
-- ==== Proof.LibCalledOps.lean ====
/-
  An operation of a called (module-local) function, at LITERAL buffers, is the plain operation at those buffers.

  A called function's operations are written over references that carry the tensor type, and move the operation's
  function to the buffers' own types along an equation between the two types. When the buffers are given, the
  carried type is the buffer's own and that equation is reflexivity, so the transports are identities and the
  operation is the plain one. The statements below say so for an operation of each arity, with the operation's
  FUNCTION A VARIABLE: instantiating one at a function whose definition is a fold over a large array (a window sum
  over a million entries, a scatter) then never opens that definition, where comparing the two spellings of the
  operation directly may walk into it.

  Use: `(binary_of ra rb ry (by decide) rfl (by decide) rfl (by decide) rfl _ : TRef.binary (.of ra) (.of rb) (.of ry) f = binary ra rb ry f)`,
  then rewrite the called operations of an operation list with such equations and read the list with the usual lemmas.
-/
import Idealize.ShloMosaic.Lib.StableHlo

namespace Idealize.ShloMosaic.StableHlo.TRef

variable {τ : Topo} {sig : RefSig} {Val : EltTy → Type}

/-- A called function's constant at a literal buffer is the plain constant. -/
theorem nullary_of (ry : Ref sig .tc) (hy1 : ry.space ≠ .host) (hy2 : ry.isScoped = false) (v : ry.ty.Contents Val) :
    (TRef.nullary (TRef.of ry rfl hy1 hy2) v : HloOp τ sig Val) = StableHlo.nullary ry v ⟨hy1, hy2⟩ := rfl

/-- A called function's one-operand operation at literal buffers is the plain operation. -/
theorem unary_of (rx ry : Ref sig .tc) (hx1 : rx.space ≠ .host) (hx2 : rx.isScoped = false)
    (hy1 : ry.space ≠ .host) (hy2 : ry.isScoped = false) (f : rx.ty.Contents Val → ry.ty.Contents Val) :
    (TRef.unary (TRef.of rx rfl hx1 hx2) (TRef.of ry rfl hy1 hy2) f : HloOp τ sig Val)
      = StableHlo.unary rx ry f ⟨hx1, hx2⟩ ⟨hy1, hy2⟩ := rfl

/-- A called function's two-operand operation at literal buffers is the plain operation. -/
theorem binary_of (ra rb ry : Ref sig .tc)
    (ha1 : ra.space ≠ .host) (ha2 : ra.isScoped = false) (hb1 : rb.space ≠ .host) (hb2 : rb.isScoped = false)
    (hy1 : ry.space ≠ .host) (hy2 : ry.isScoped = false)
    (f : ra.ty.Contents Val → rb.ty.Contents Val → ry.ty.Contents Val) :
    (TRef.binary (TRef.of ra rfl ha1 ha2) (TRef.of rb rfl hb1 hb2) (TRef.of ry rfl hy1 hy2) f : HloOp τ sig Val)
      = StableHlo.binary ra rb ry f ⟨ha1, ha2⟩ ⟨hb1, hb2⟩ ⟨hy1, hy2⟩ := rfl

/-- A called function's three-operand operation at literal buffers is the plain operation. -/
theorem ternary_of (rc ra rb ry : Ref sig .tc)
    (hc1 : rc.space ≠ .host) (hc2 : rc.isScoped = false) (ha1 : ra.space ≠ .host) (ha2 : ra.isScoped = false)
    (hb1 : rb.space ≠ .host) (hb2 : rb.isScoped = false) (hy1 : ry.space ≠ .host) (hy2 : ry.isScoped = false)
    (f : rc.ty.Contents Val → ra.ty.Contents Val → rb.ty.Contents Val → ry.ty.Contents Val) :
    (TRef.ternary (TRef.of rc rfl hc1 hc2) (TRef.of ra rfl ha1 ha2) (TRef.of rb rfl hb1 hb2) (TRef.of ry rfl hy1 hy2) f : HloOp τ sig Val)
      = StableHlo.ternary rc ra rb ry f ⟨hc1, hc2⟩ ⟨ha1, ha2⟩ ⟨hb1, hb2⟩ ⟨hy1, hy2⟩ := rfl

end Idealize.ShloMosaic.StableHlo.TRef
-- ==== Proof.KernelHost.lean ====
/-
  The host operations around the kernel's region.

  Before the region: forty-two operations. The flattened table (the array of window 0) is the first argument
  reshaped to [131072, 300]; the one-row array (window 1) is the noise vector — the shared function `noise` of the
  two sample arrays, computed by the first forty operations — reshaped to [1, 300].
  After the region: one operation, the result array reshaped back to [128, 1024, 300].
  With the region's own result (every row of the flattened table with the one row added) the program's result is
  `addRow table (noise sgn u)`.
-/
import proofs.«101872_j59253368815715_1_alg».proof.Proof.Gen.KernelIdeal.Frame
import proofs.«101872_j59253368815715_1_alg».proof.Proof.Noise
import proofs.«101872_j59253368815715_1_alg».proof.Proof.LibCalledOps
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Host

open Cert.KernelIdeal Cert.KernelIdeal.Gen

variable {F : FTy → Type} [FloatOps F]
variable (m : (ℓ : Loc nD τ sig) → Buf (Elt F) ℓ)

/-! ## The shared stages, spelt with this program's shapes and side conditions

Each stage of the noise vector as this program's operations write it is the stage of `Cert.Noise` (the same
operations over the same literal shapes: only the names of the shapes and of their side conditions differ). -/

theorem draws_eq (sgn u : FVec F S1000000 .f32) :
    mulf (mulf (broadcastInDim S1000000 ![] bcast_S_S1000000 (constant S_ .f32 0xBE315CAC#32)) (Host.sign sgn)) (Host.log u)
      = Cert.Noise.draws sgn u := rfl

theorem accepted_eq (r : FVec F S1000000 .f32) :
    andi (cmpf .oge r (broadcastInDim S1000000 ![] bcast_S_S1000000 (constant S_ .f32 0xBCAE18D5#32)))
        (cmpf .ole r (broadcastInDim S1000000 ![] bcast_S_S1000000 (constant S_ .f32 0x3CAE18D5#32)))
      = Cert.Noise.accepted r := rfl

theorem rank_eq (a : IVec S1000000 1) :
    subi (Host.reduceWindow IntOp.addi ![1000000] ![1] ![999999] ![0] (extui 32 a natLt_1_32)
          (broadcastInDim S_ ![] bcast_S_S_ (constantI S_ 32 0#32)) reduceWindows_S1000000_S1000000_w1000000s1p999999_0 h_S_)
        (broadcastInDim S1000000 ![] bcast_S_S1000000 (constantI S_ 32 1#32))
      = Cert.Noise.rank a := rfl

/-- The guarded choice of a slot, before the wrap-around. -/
abbrev pick (a : IVec S1000000 1) (ρ : IVec S1000000 32) : IVec S1000000 32 :=
  select (andi a (cmpi .slt ρ (broadcastInDim S1000000 ![] bcast_S_S1000000 (constantI S_ 32 300#32)))) ρ
    (broadcastInDim S1000000 ![] bcast_S_S1000000 (id (constantI S_ 32 300#32)))

theorem slot_eq (a : IVec S1000000 1) (ρ : IVec S1000000 32) :
    select (cmpi .slt (pick a ρ) (broadcastInDim S1000000 ![] bcast_S_S1000000 (constantI S_ 32 0#32)))
        (addi (pick a ρ) (broadcastInDim S1000000 ![] bcast_S_S1000000 (constantI S_ 32 301#32))) (pick a ρ)
      = Cert.Noise.slot a ρ := rfl

theorem noise_eq (sgn u : FVec F S1000000 .f32) :
    extractStridedSlice S300 ![0]
        (Host.scatter scatter_S301_S1000000x1_S1000000_n_0_0_1 (fun _ b => b)
          (broadcastInDim S301 ![] bcast_S_S301 (constant S_ .f32 0x00000000#32))
          (broadcastInDim S1000000x1 ![0] bcast_S1000000_S1000000x1_0
            (Cert.Noise.slot (Cert.Noise.accepted (Cert.Noise.draws sgn u)) (Cert.Noise.rank (Cert.Noise.accepted (Cert.Noise.draws sgn u)))))
          (Cert.Noise.draws sgn u))
        slices_S301_S300_0
      = Cert.Noise.noise sgn u := rfl

theorem count_zero :
    (TRef.nullary (.of main_call0_call0_c : TRef sig ⟨S_, .i32⟩) (constantI S_ 32 0#32) : HloOp τ sig (Elt F))
      = nullary main_call0_call0_c (constantI S_ 32 0#32) := rfl

theorem count_init :
    (TRef.unary (.of main_call0_call0_c : TRef sig ⟨S_, .i32⟩) (.of main_call0_call0_v0 : TRef sig ⟨S_, .i32⟩) (broadcastInDim S_ ![] bcast_S_S_) : HloOp τ sig (Elt F))
      = unary main_call0_call0_c main_call0_call0_v0 (broadcastInDim S_ ![] bcast_S_S_ : (⟨S_, .i32⟩ : BufTy).Contents (Elt F) → (⟨S_, .i32⟩ : BufTy).Contents (Elt F)) := rfl

theorem count_sum :
    (TRef.binary (.of main_v10 : TRef sig ⟨S1000000, .i32⟩) (.of main_call0_call0_v0 : TRef sig ⟨S_, .i32⟩) (.of main_v11 : TRef sig ⟨S1000000, .i32⟩) (fun x v => Host.reduceWindow IntOp.addi ![1000000] ![1] ![999999] ![0] x v reduceWindows_S1000000_S1000000_w1000000s1p999999_0 h_S_) : HloOp τ sig (Elt F))
      = binary main_v10 main_call0_call0_v0 main_v11 ((fun x v => Host.reduceWindow IntOp.addi ![1000000] ![1] ![999999] ![0] x v reduceWindows_S1000000_S1000000_w1000000s1p999999_0 h_S_) : (⟨S1000000, .i32⟩ : BufTy).Contents (Elt F) → (⟨S_, .i32⟩ : BufTy).Contents (Elt F) → (⟨S1000000, .i32⟩ : BufTy).Contents (Elt F)) :=
  TRef.binary_of main_v10 main_call0_call0_v0 main_v11 (by decide) rfl (by decide) rfl (by decide) rfl _

theorem choice_conv :
    (TRef.unary (.of main_c_3 : TRef sig ⟨S_, .i32⟩) (.of main_call1_v0 : TRef sig ⟨S_, .i32⟩) id : HloOp τ sig (Elt F))
      = unary main_c_3 main_call1_v0 (id : (⟨S_, .i32⟩ : BufTy).Contents (Elt F) → (⟨S_, .i32⟩ : BufTy).Contents (Elt F)) := rfl

theorem choice_rep :
    (TRef.unary (.of main_call1_v0 : TRef sig ⟨S_, .i32⟩) (.of main_call1_v1 : TRef sig ⟨S1000000, .i32⟩) (broadcastInDim S1000000 ![] bcast_S_S1000000) : HloOp τ sig (Elt F))
      = unary main_call1_v0 main_call1_v1 (broadcastInDim S1000000 ![] bcast_S_S1000000 : (⟨S_, .i32⟩ : BufTy).Contents (Elt F) → (⟨S1000000, .i32⟩ : BufTy).Contents (Elt F)) := rfl

theorem choice_sel :
    (TRef.ternary (.of main_v16 : TRef sig ⟨S1000000, .i1⟩) (.of main_v13 : TRef sig ⟨S1000000, .i32⟩) (.of main_call1_v1 : TRef sig ⟨S1000000, .i32⟩) (.of main_v17 : TRef sig ⟨S1000000, .i32⟩) select : HloOp τ sig (Elt F))
      = ternary main_v16 main_v13 main_call1_v1 main_v17 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) := rfl

/-- The running count's three operations, and the guarded choice's three, at their calls' buffers: an operation of a
    called function is the same operation at the call's buffers (the typed references' transports are identities). -/
theorem count_ops : (hostOps0_1 : List (HloOp τ sig (Elt F)))
    = [ nullary main_call0_call0_c (constantI S_ 32 0#32),
        unary main_call0_call0_c main_call0_call0_v0 (broadcastInDim S_ ![] bcast_S_S_ : (⟨S_, .i32⟩ : BufTy).Contents (Elt F) → (⟨S_, .i32⟩ : BufTy).Contents (Elt F)),
        binary main_v10 main_call0_call0_v0 main_v11 ((fun x v => Host.reduceWindow IntOp.addi ![1000000] ![1] ![999999] ![0] x v reduceWindows_S1000000_S1000000_w1000000s1p999999_0 h_S_) : (⟨S1000000, .i32⟩ : BufTy).Contents (Elt F) → (⟨S_, .i32⟩ : BufTy).Contents (Elt F) → (⟨S1000000, .i32⟩ : BufTy).Contents (Elt F)) ] := by
  unfold hostOps0_1
  rw [count_zero, count_init, count_sum]

theorem choice_ops : (hostOps0_3 : List (HloOp τ sig (Elt F)))
    = [ unary main_c_3 main_call1_v0 (id : (⟨S_, .i32⟩ : BufTy).Contents (Elt F) → (⟨S_, .i32⟩ : BufTy).Contents (Elt F)),
        unary main_call1_v0 main_call1_v1 (broadcastInDim S1000000 ![] bcast_S_S1000000 : (⟨S_, .i32⟩ : BufTy).Contents (Elt F) → (⟨S1000000, .i32⟩ : BufTy).Contents (Elt F)),
        ternary main_v16 main_v13 main_call1_v1 main_v17 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ] := by
  unfold hostOps0_3
  rw [choice_conv, choice_rep, choice_sel]

/-- The region finds the flattened table in window 0's array: the first argument, reshaped. -/
theorem table_eq (c : Dev nD) :
    V m c (Pipeline.arrRef spec0 0)
      = shapeCast S131072x300 (m ((c : Thread nD τ).loc main_arg0)) shapeCasts_S128x1024x300_S131072x300 := by
  show V m c main_v27 = _
  dsimp only [V, V0]
  simp only [hostOps0, hostOps0_1, hostOps0_2, hostOps0_3, hostOps0_4, List.flatten_cons, List.flatten_nil,
    List.append_nil, List.cons_append, List.nil_append]
  after_results_simp
  rfl

/-- The region finds the noise vector, as one row, in window 1's array. -/
theorem row_eq (c : Dev nD) :
    V m c (Pipeline.arrRef spec0 1)
      = shapeCast S1x300 (Cert.Noise.noise (m ((c : Thread nD τ).loc main_arg1)) (m ((c : Thread nD τ).loc main_arg2)))
          shapeCasts_S300_S1x300 := by
  show V m c main_v28 = _
  dsimp only [V, V0]
  simp only [hostOps0, count_ops, hostOps0_2, choice_ops, hostOps0_4, List.flatten_cons, List.flatten_nil,
    List.append_nil, List.cons_append, List.nil_append]
  after_results_simp
  rw [draws_eq, accepted_eq, rank_eq, slot_eq, noise_eq]
  rfl

/-- After the region the result buffer holds the region's result array reshaped back to the table's shape. -/
theorem tail_eq (c : Dev nD) :
    Pipeline.afterTail₀ cfgs (dats m) 0 (V0 m) [hostOps1] c main_v30
      = shapeCast S128x1024x300 ((dats m 0 c).arrAt 2 cfg0.N) shapeCasts_S131072x300_S128x1024x300 := by
  unfold Pipeline.afterTail₀
  show StableHlo.after hostOps1 _ (Proc.devRef .tc main_v30) = _
  after_results
  exact congrArg (fun X => shapeCast S128x1024x300 X shapeCasts_S131072x300_S128x1024x300)
    (Pipeline.withArrays_arr spec0 launch0.win.arr_inj c _ _ 2)

end Cert.KernelIdeal.Host

end
-- ==== Proof.KernelRun.lean ====
/-
  The kernel program's run, read: its result buffer ends holding `addRow table (noise sgn u)` — every row of the
  table with the noise vector added — and its three arguments end as launched.

  The pieces: the region leaves `rowAdd X N` in its result array (X the flattened table, N the noise vector as one
  row: the blocks-to-array module); X and N are reshapes of the first argument and of `noise` of the other two (the
  host operations before the region); the result buffer is that array reshaped back (the one operation after it);
  and flatten / add the row / fold back is `addRow` (index arithmetic only).
-/
import proofs.«101872_j59253368815715_1_alg».proof.Proof.Gen.KernelIdeal.Frame
import proofs.«101872_j59253368815715_1_alg».proof.Proof.AddRow
import proofs.«101872_j59253368815715_1_alg».proof.Proof.Noise
import proofs.«101872_j59253368815715_1_alg».proof.Proof.KernelRows
import proofs.«101872_j59253368815715_1_alg».proof.Proof.KernelHost

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.AddRow

variable (m : (ℓ : Loc nD τ sig) → Buf (Elt Ideal) ℓ) (ρ : Dev nD → PrngReg)

/-- The result buffer after the run: the table with the noise vector added to every row. -/
theorem result_eq (c : Dev nD) :
    Pipeline.afterTail₀ cfgs (dats m) 0 (V0 m) [hostOps1] c main_v30
      = addRow (m ((c.tc : Thread nD τ).loc main_arg0)) (Cert.Noise.noise (m ((c.tc : Thread nD τ).loc main_arg1)) (m ((c.tc : Thread nD τ).loc main_arg2))) := by
  rw [Cert.KernelIdeal.Host.tail_eq m c, Cert.KernelIdeal.Rows.final m c, Cert.KernelIdeal.Host.table_eq m c,
    Cert.KernelIdeal.Host.row_eq m c]
  exact rows_eq _ _ _ _ _

/-- Every weakly fair execution terminates with the result buffer at `addRow` of the arguments and the arguments unchanged. -/
theorem run : θ_run defs (onTc (τ := τ) (main (F := Ideal))) ⟨m, fun _ => 0, ρ⟩ fun r => ∀ c : Dev nD,
      r.2.mem ((c.tc : Thread nD τ).loc main_v30)
          = addRow (m ((c.tc : Thread nD τ).loc main_arg0)) (Cert.Noise.noise (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v30 (Pipeline.mem_restRefs_of main_v30 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Run

end
-- ==== Proof.RefRun.lean ====
/-
  The reference program's run, read back. Its @main is a straight line of host operations once its two outlined
  functions are put back at their calls (the running count is three operations — a zero, its scalar broadcast, the
  padded window sum —, the guarded choice is three — the spare slot's number converted to its own type, repeated,
  the select): forty-three operations in all. Every weakly fair execution terminates with each buffer at the
  operations' composed value of the launch contents, so the result buffer ends at

      table + (noise laid along the last axis of [1, 1, 300], repeated over [128, 1024, 300])

  with `noise` the shared function of the two sample arrays (its stages are the first forty operations), and the
  three argument buffers end as launched.
-/
import proofs.«101872_j59253368815715_1_alg».proof.Proof.Gen.ReferenceIdeal
import proofs.«101872_j59253368815715_1_alg».proof.Proof.Noise
import proofs.«101872_j59253368815715_1_alg».proof.Proof.LibCalledOps
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's forty-three operations in order, the two calls' bodies at their call sites over the calls' own buffers
    (an operation of a called function is the same operation at the call's buffers). -/
abbrev ops : List (HloOp τ sig (Elt F)) :=
  [ unary main_arg1 main_v0 (Host.sign : (⟨S1000000, .f32⟩ : BufTy).Contents (Elt F) → (⟨S1000000, .f32⟩ : BufTy).Contents (Elt F)),
    nullary main_cst (constant S_ .f32 0xBE315CAC#32),
    unary main_cst main_v1 (broadcastInDim S1000000 ![] bcast_S_S1000000 : (⟨S_, .f32⟩ : BufTy).Contents (Elt F) → (⟨S1000000, .f32⟩ : BufTy).Contents (Elt F)),
    binary main_v1 main_v0 main_v2 (mulf : (⟨S1000000, .f32⟩ : BufTy).Contents (Elt F) → (⟨S1000000, .f32⟩ : BufTy).Contents (Elt F) → (⟨S1000000, .f32⟩ : BufTy).Contents (Elt F)),
    unary main_arg2 main_v3 (Host.log : (⟨S1000000, .f32⟩ : BufTy).Contents (Elt F) → (⟨S1000000, .f32⟩ : BufTy).Contents (Elt F)),
    binary main_v2 main_v3 main_v4 (mulf : (⟨S1000000, .f32⟩ : BufTy).Contents (Elt F) → (⟨S1000000, .f32⟩ : BufTy).Contents (Elt F) → (⟨S1000000, .f32⟩ : BufTy).Contents (Elt F)),
    nullary main_cst_0 (constant S_ .f32 0xBCAE18D5#32),
    unary main_cst_0 main_v5 (broadcastInDim S1000000 ![] bcast_S_S1000000 : (⟨S_, .f32⟩ : BufTy).Contents (Elt F) → (⟨S1000000, .f32⟩ : BufTy).Contents (Elt F)),
    binary main_v4 main_v5 main_v6 (cmpf .oge : (⟨S1000000, .f32⟩ : BufTy).Contents (Elt F) → (⟨S1000000, .f32⟩ : BufTy).Contents (Elt F) → (⟨S1000000, .i1⟩ : BufTy).Contents (Elt F)),
    nullary main_cst_1 (constant S_ .f32 0x3CAE18D5#32),
    unary main_cst_1 main_v7 (broadcastInDim S1000000 ![] bcast_S_S1000000 : (⟨S_, .f32⟩ : BufTy).Contents (Elt F) → (⟨S1000000, .f32⟩ : BufTy).Contents (Elt F)),
    binary main_v4 main_v7 main_v8 (cmpf .ole : (⟨S1000000, .f32⟩ : BufTy).Contents (Elt F) → (⟨S1000000, .f32⟩ : BufTy).Contents (Elt F) → (⟨S1000000, .i1⟩ : BufTy).Contents (Elt F)),
    binary main_v6 main_v8 main_v9 (andi : (⟨S1000000, .i1⟩ : BufTy).Contents (Elt F) → (⟨S1000000, .i1⟩ : BufTy).Contents (Elt F) → (⟨S1000000, .i1⟩ : BufTy).Contents (Elt F)),
    unary main_v9 main_v10 ((extui 32 · natLt_1_32) : (⟨S1000000, .i1⟩ : BufTy).Contents (Elt F) → (⟨S1000000, .i32⟩ : BufTy).Contents (Elt F)),
    nullary main_call0_call0_c (constantI S_ 32 0#32),
    unary main_call0_call0_c main_call0_call0_v0 (broadcastInDim S_ ![] bcast_S_S_ : (⟨S_, .i32⟩ : BufTy).Contents (Elt F) → (⟨S_, .i32⟩ : BufTy).Contents (Elt F)),
    binary main_v10 main_call0_call0_v0 main_v11 ((fun x v => Host.reduceWindow IntOp.addi ![1000000] ![1] ![999999] ![0] x v reduceWindows_S1000000_S1000000_w1000000s1p999999_0 h_S_) : (⟨S1000000, .i32⟩ : BufTy).Contents (Elt F) → (⟨S_, .i32⟩ : BufTy).Contents (Elt F) → (⟨S1000000, .i32⟩ : BufTy).Contents (Elt F)),
    nullary main_c (constantI S_ 32 1#32),
    unary main_c main_v12 (broadcastInDim S1000000 ![] bcast_S_S1000000 : (⟨S_, .i32⟩ : BufTy).Contents (Elt F) → (⟨S1000000, .i32⟩ : BufTy).Contents (Elt F)),
    binary main_v11 main_v12 main_v13 (subi : (⟨S1000000, .i32⟩ : BufTy).Contents (Elt F) → (⟨S1000000, .i32⟩ : BufTy).Contents (Elt F) → (⟨S1000000, .i32⟩ : BufTy).Contents (Elt F)),
    nullary main_c_2 (constantI S_ 32 300#32),
    unary main_c_2 main_v14 (broadcastInDim S1000000 ![] bcast_S_S1000000 : (⟨S_, .i32⟩ : BufTy).Contents (Elt F) → (⟨S1000000, .i32⟩ : BufTy).Contents (Elt F)),
    binary main_v13 main_v14 main_v15 (cmpi .slt : (⟨S1000000, .i32⟩ : BufTy).Contents (Elt F) → (⟨S1000000, .i32⟩ : BufTy).Contents (Elt F) → (⟨S1000000, .i1⟩ : BufTy).Contents (Elt F)),
    binary main_v9 main_v15 main_v16 (andi : (⟨S1000000, .i1⟩ : BufTy).Contents (Elt F) → (⟨S1000000, .i1⟩ : BufTy).Contents (Elt F) → (⟨S1000000, .i1⟩ : BufTy).Contents (Elt F)),
    nullary main_c_3 (constantI S_ 32 300#32),
    unary main_c_3 main_call1_v0 (id : (⟨S_, .i32⟩ : BufTy).Contents (Elt F) → (⟨S_, .i32⟩ : BufTy).Contents (Elt F)),
    unary main_call1_v0 main_call1_v1 (broadcastInDim S1000000 ![] bcast_S_S1000000 : (⟨S_, .i32⟩ : BufTy).Contents (Elt F) → (⟨S1000000, .i32⟩ : BufTy).Contents (Elt F)),
    ternary main_v16 main_v13 main_call1_v1 main_v17 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_cst_4 (constant S_ .f32 0x00000000#32),
    unary main_cst_4 main_v18 (broadcastInDim S301 ![] bcast_S_S301 : (⟨S_, .f32⟩ : BufTy).Contents (Elt F) → (⟨S301, .f32⟩ : BufTy).Contents (Elt F)),
    nullary main_c_5 (constantI S_ 32 0#32),
    unary main_c_5 main_v19 (broadcastInDim S1000000 ![] bcast_S_S1000000 : (⟨S_, .i32⟩ : BufTy).Contents (Elt F) → (⟨S1000000, .i32⟩ : BufTy).Contents (Elt F)),
    binary main_v17 main_v19 main_v20 (cmpi .slt : (⟨S1000000, .i32⟩ : BufTy).Contents (Elt F) → (⟨S1000000, .i32⟩ : BufTy).Contents (Elt F) → (⟨S1000000, .i1⟩ : BufTy).Contents (Elt F)),
    nullary main_c_6 (constantI S_ 32 301#32),
    unary main_c_6 main_v21 (broadcastInDim S1000000 ![] bcast_S_S1000000 : (⟨S_, .i32⟩ : BufTy).Contents (Elt F) → (⟨S1000000, .i32⟩ : BufTy).Contents (Elt F)),
    binary main_v17 main_v21 main_v22 (addi : (⟨S1000000, .i32⟩ : BufTy).Contents (Elt F) → (⟨S1000000, .i32⟩ : BufTy).Contents (Elt F) → (⟨S1000000, .i32⟩ : BufTy).Contents (Elt F)),
    ternary main_v20 main_v22 main_v17 main_v23 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v23 main_v24 (broadcastInDim S1000000x1 ![0] bcast_S1000000_S1000000x1_0 : (⟨S1000000, .i32⟩ : BufTy).Contents (Elt F) → (⟨S1000000x1, .i32⟩ : BufTy).Contents (Elt F)),
    ternary main_v18 main_v24 main_v4 main_v25 ((fun x i u => Host.scatter scatter_S301_S1000000x1_S1000000_n_0_0_1 (fun _ b => b) x i u) : (⟨S301, .f32⟩ : BufTy).Contents (Elt F) → (⟨S1000000x1, .i32⟩ : BufTy).Contents (Elt F) → (⟨S1000000, .f32⟩ : BufTy).Contents (Elt F) → (⟨S301, .f32⟩ : BufTy).Contents (Elt F)),
    unary main_v25 main_v26 ((extractStridedSlice S300 ![0] · slices_S301_S300_0) : (⟨S301, .f32⟩ : BufTy).Contents (Elt F) → (⟨S300, .f32⟩ : BufTy).Contents (Elt F)),
    unary main_v26 main_v27 (broadcastInDim S1x1x300 ![2] bcast_S300_S1x1x300_2 : (⟨S300, .f32⟩ : BufTy).Contents (Elt F) → (⟨S1x1x300, .f32⟩ : BufTy).Contents (Elt F)),
    unary main_v27 main_v28 (broadcastInDim S128x1024x300 ![0, 1, 2] bcast_S1x1x300_S128x1024x300_0_1_2 : (⟨S1x1x300, .f32⟩ : BufTy).Contents (Elt F) → (⟨S128x1024x300, .f32⟩ : BufTy).Contents (Elt F)),
    binary main_arg0 main_v28 main_v29 (addf : (⟨S128x1024x300, .f32⟩ : BufTy).Contents (Elt F) → (⟨S128x1024x300, .f32⟩ : BufTy).Contents (Elt F) → (⟨S128x1024x300, .f32⟩ : BufTy).Contents (Elt F)) ]

/-! ## An operation of a called function is the plain operation at the call's buffers -/

theorem count_zero :
    (TRef.nullary (.of main_call0_call0_c : TRef sig ⟨S_, .i32⟩) (constantI S_ 32 0#32) : HloOp τ sig (Elt F))
      = nullary main_call0_call0_c (constantI S_ 32 0#32) := rfl

theorem count_init :
    (TRef.unary (.of main_call0_call0_c : TRef sig ⟨S_, .i32⟩) (.of main_call0_call0_v0 : TRef sig ⟨S_, .i32⟩) (broadcastInDim S_ ![] bcast_S_S_) : HloOp τ sig (Elt F))
      = unary main_call0_call0_c main_call0_call0_v0 (broadcastInDim S_ ![] bcast_S_S_ : (⟨S_, .i32⟩ : BufTy).Contents (Elt F) → (⟨S_, .i32⟩ : BufTy).Contents (Elt F)) := rfl

theorem count_sum :
    (TRef.binary (.of main_v10 : TRef sig ⟨S1000000, .i32⟩) (.of main_call0_call0_v0 : TRef sig ⟨S_, .i32⟩) (.of main_v11 : TRef sig ⟨S1000000, .i32⟩) (fun x v => Host.reduceWindow IntOp.addi ![1000000] ![1] ![999999] ![0] x v reduceWindows_S1000000_S1000000_w1000000s1p999999_0 h_S_) : HloOp τ sig (Elt F))
      = binary main_v10 main_call0_call0_v0 main_v11 ((fun x v => Host.reduceWindow IntOp.addi ![1000000] ![1] ![999999] ![0] x v reduceWindows_S1000000_S1000000_w1000000s1p999999_0 h_S_) : (⟨S1000000, .i32⟩ : BufTy).Contents (Elt F) → (⟨S_, .i32⟩ : BufTy).Contents (Elt F) → (⟨S1000000, .i32⟩ : BufTy).Contents (Elt F)) :=
  TRef.binary_of main_v10 main_call0_call0_v0 main_v11 (by decide) rfl (by decide) rfl (by decide) rfl _

theorem choice_conv :
    (TRef.unary (.of main_c_3 : TRef sig ⟨S_, .i32⟩) (.of main_call1_v0 : TRef sig ⟨S_, .i32⟩) id : HloOp τ sig (Elt F))
      = unary main_c_3 main_call1_v0 (id : (⟨S_, .i32⟩ : BufTy).Contents (Elt F) → (⟨S_, .i32⟩ : BufTy).Contents (Elt F)) := rfl

theorem choice_rep :
    (TRef.unary (.of main_call1_v0 : TRef sig ⟨S_, .i32⟩) (.of main_call1_v1 : TRef sig ⟨S1000000, .i32⟩) (broadcastInDim S1000000 ![] bcast_S_S1000000) : HloOp τ sig (Elt F))
      = unary main_call1_v0 main_call1_v1 (broadcastInDim S1000000 ![] bcast_S_S1000000 : (⟨S_, .i32⟩ : BufTy).Contents (Elt F) → (⟨S1000000, .i32⟩ : BufTy).Contents (Elt F)) := rfl

theorem choice_sel :
    (TRef.ternary (.of main_v16 : TRef sig ⟨S1000000, .i1⟩) (.of main_v13 : TRef sig ⟨S1000000, .i32⟩) (.of main_call1_v1 : TRef sig ⟨S1000000, .i32⟩) (.of main_v17 : TRef sig ⟨S1000000, .i32⟩) select : HloOp τ sig (Elt F))
      = ternary main_v16 main_v13 main_call1_v1 main_v17 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) := rfl

/-- @main is that straight line: the functions' bodies unfolded at their calls, sequencing reassociated, and each of
    the six called operations read as the plain operation at its buffers. -/
theorem main_eq (c : Dev nD) : main (F := F) c = seq ops := by
  simp only [main, fn_cumsum.body, fn_cumsum_0.body, fn_where.body, seq, bind_assoc, pure_bind]
  rw [count_zero, count_init, count_sum, choice_conv, choice_rep, choice_sel]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., unary_bufs_sub .., binary_bufs_sub ..⟩

/-- Every buffer after the run is the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The shared stages, spelt with this program's shapes and side conditions

Each stage of the noise vector as this program's operations write it is the stage of `Cert.Noise` (the same
operations over the same literal shapes: only the names of the shapes and of their side conditions differ). -/

theorem draws_eq (sgn u : FVec F S1000000 .f32) :
    mulf (mulf (broadcastInDim S1000000 ![] bcast_S_S1000000 (constant S_ .f32 0xBE315CAC#32)) (Host.sign sgn)) (Host.log u)
      = Cert.Noise.draws sgn u := rfl

theorem accepted_eq (r : FVec F S1000000 .f32) :
    andi (cmpf .oge r (broadcastInDim S1000000 ![] bcast_S_S1000000 (constant S_ .f32 0xBCAE18D5#32)))
        (cmpf .ole r (broadcastInDim S1000000 ![] bcast_S_S1000000 (constant S_ .f32 0x3CAE18D5#32)))
      = Cert.Noise.accepted r := rfl

theorem rank_eq (a : IVec S1000000 1) :
    subi (Host.reduceWindow IntOp.addi ![1000000] ![1] ![999999] ![0] (extui 32 a natLt_1_32)
          (broadcastInDim S_ ![] bcast_S_S_ (constantI S_ 32 0#32)) reduceWindows_S1000000_S1000000_w1000000s1p999999_0 h_S_)
        (broadcastInDim S1000000 ![] bcast_S_S1000000 (constantI S_ 32 1#32))
      = Cert.Noise.rank a := rfl

/-- The guarded choice of a slot, before the wrap-around. -/
abbrev pick (a : IVec S1000000 1) (ρ : IVec S1000000 32) : IVec S1000000 32 :=
  select (andi a (cmpi .slt ρ (broadcastInDim S1000000 ![] bcast_S_S1000000 (constantI S_ 32 300#32)))) ρ
    (broadcastInDim S1000000 ![] bcast_S_S1000000 (id (constantI S_ 32 300#32)))

theorem slot_eq (a : IVec S1000000 1) (ρ : IVec S1000000 32) :
    select (cmpi .slt (pick a ρ) (broadcastInDim S1000000 ![] bcast_S_S1000000 (constantI S_ 32 0#32)))
        (addi (pick a ρ) (broadcastInDim S1000000 ![] bcast_S_S1000000 (constantI S_ 32 301#32))) (pick a ρ)
      = Cert.Noise.slot a ρ := rfl

theorem noise_eq (sgn u : FVec F S1000000 .f32) :
    extractStridedSlice S300 ![0]
        (Host.scatter scatter_S301_S1000000x1_S1000000_n_0_0_1 (fun _ b => b)
          (broadcastInDim S301 ![] bcast_S_S301 (constant S_ .f32 0x00000000#32))
          (broadcastInDim S1000000x1 ![0] bcast_S1000000_S1000000x1_0
            (Cert.Noise.slot (Cert.Noise.accepted (Cert.Noise.draws sgn u)) (Cert.Noise.rank (Cert.Noise.accepted (Cert.Noise.draws sgn u)))))
          (Cert.Noise.draws sgn u))
        slices_S301_S300_0
      = Cert.Noise.noise sgn u := rfl

/-- The fold at the result buffer: the table plus the noise vector repeated over it. -/
theorem out_eq (V : Valuation τ sig (Elt F)) :
    after ops V (main_v29 : DevRef τ sig)
      = addf (V (main_arg0 : DevRef τ sig))
          (broadcastInDim S128x1024x300 ![0, 1, 2] bcast_S1x1x300_S128x1024x300_0_1_2
            (broadcastInDim S1x1x300 ![2] bcast_S300_S1x1x300_2
              (Cert.Noise.noise (V (main_arg1 : DevRef τ sig)) (V (main_arg2 : DevRef τ sig))))) := by
  after_results_simp
  rw [draws_eq, accepted_eq, rank_eq, slot_eq, noise_eq]

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-- The run: the result at the table plus the repeated noise vector, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = addf (m ((c.tc : Thread nD τ).loc main_arg0))
              (broadcastInDim S128x1024x300 ![0, 1, 2] bcast_S1x1x300_S128x1024x300_0_1_2
                (broadcastInDim S1x1x300 ![2] bcast_S300_S1x1x300_2
                  (Cert.Noise.noise (m ((c.tc : Thread nD τ).loc main_arg1)) (m ((c.tc : Thread nD τ).loc main_arg2)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v29).trans (out_eq _), (h c main_arg0).trans (arg0_eq _),
      (h c main_arg1).trans (arg1_eq _), (h c main_arg2).trans (arg2_eq _)⟩)
    (run_fold m ρ)

end Cert.ReferenceIdeal.HostRun

end
-- ==== Proof.lean ====
/-
  The kernel adds a 300-vector of truncated-Laplace noise to every row of a [128, 1024, 300] table; the reference
  does the same with a broadcast. Both programs compute the noise vector from the two sample arrays by the same
  host operations with the same literals (`Cert.Noise.noise`), so at the extended reals both results are

      result (b, s, d) = table (b, s, d) + noise d,

  the same two numbers added at every index: no law of the extended reals is used and the finiteness of the inputs
  is never needed.

  * The kernel side: the table is flattened to 131072 rows, the region adds the one-row noise array to 32 blocks
    of 4096 rows, which tile the rows, and the result is folded back (`Cert.KernelIdeal.Run.run`).
  * The reference side: a straight line of forty-three host operations, its two outlined functions put back at
    their calls (`Cert.ReferenceIdeal.HostRun.run`), ending in the table plus the noise vector repeated over it.
  * The two arrangements are one function, `Cert.AddRow.addRow` (`rows_eq`, `host_eq`).
  The frames of the two kernel programs are the generated ones; the reference's frame is its run with the result
  dropped; the idealization rewrote nothing, so the fourth conjunct is `True`.
-/
import proofs.«101872_j59253368815715_1_alg».proof.Defs
import proofs.«101872_j59253368815715_1_alg».proof.Proof.Gen.Kernel
import proofs.«101872_j59253368815715_1_alg».proof.Proof.Gen.Kernel.Frame
import proofs.«101872_j59253368815715_1_alg».proof.Proof.Gen.KernelIdeal
import proofs.«101872_j59253368815715_1_alg».proof.Proof.Gen.KernelIdeal.Frame
import proofs.«101872_j59253368815715_1_alg».proof.Proof.Gen.ReferenceIdeal
import proofs.«101872_j59253368815715_1_alg».proof.Proof.Gen.Pre_finite_inputs
import proofs.«101872_j59253368815715_1_alg».proof.Proof.AddRow
import proofs.«101872_j59253368815715_1_alg».proof.Proof.Noise
import proofs.«101872_j59253368815715_1_alg».proof.Proof.KernelRun
import proofs.«101872_j59253368815715_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.HostRun.run (F := Ideal) m ρ)

/-- Both programs end at `addRow` of the table and the noise vector of the two sample arrays, on memories that
    agree on the three arguments. -/
theorem algebraic : Cert.algebraic_KernelIdeal_ReferenceIdeal := by
  intro m ρ m' ρ' _ hagree
  refine ⟨fun c => Cert.AddRow.addRow (m ((c.tc : Thread Cert.KernelIdeal.nD Cert.KernelIdeal.τ).loc Cert.KernelIdeal.main_arg0))
      (Cert.Noise.noise (m ((c.tc : Thread Cert.KernelIdeal.nD Cert.KernelIdeal.τ).loc Cert.KernelIdeal.main_arg1)) (m ((c.tc : Thread Cert.KernelIdeal.nD Cert.KernelIdeal.τ).loc Cert.KernelIdeal.main_arg2))),
    Cert.KernelIdeal.Run.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2]
  exact Cert.AddRow.host_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
